-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024x1024 .f32) (main_arg12 : FVec F S1024x1024 .f32) (main_arg13 : FVec F S1024x1024 .f32) (main_arg14 : FVec F S1024x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024 .f32) (main_arg8 : FVec F S1024 .f32) (main_arg9 : FVec F S1024 .f32) (main_arg10 : FVec F S1024 .f32) (main_arg11 : FVec F S1024x1024 .f32) (main_arg12 : FVec F S1024x1024 .f32) (main_arg13 : FVec F S1024x1024 .f32) (main_arg14 : FVec F S1024x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024 .f32) (main_arg8 : FVec F S1024 .f32) (main_arg9 : FVec F S1024 .f32) (main_arg10 : FVec F S1024 .f32) (main_arg11 : FVec F S1024x1024 .f32) (main_arg12 : FVec F S1024x1024 .f32) (main_arg13 : FVec F S1024x1024 .f32) (main_arg14 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16384x1024 .f32) (main_arg1 : FVec F S16384x1024 .f32) (main_arg2 : FVec F S16384x1024 .f32) (main_arg3 : FVec F S1024x1024 .f32) (main_arg4 : FVec F S1024x1024 .f32) (main_arg5 : FVec F S1024x1024 .f32) (main_arg6 : FVec F S1024x1024 .f32) (main_arg7 : FVec F S1024 .f32) (main_arg8 : FVec F S1024 .f32) (main_arg9 : FVec F S1024 .f32) (main_arg10 : FVec F S1024 .f32) (main_arg11 : FVec F S1024x1024 .f32) (main_arg12 : FVec F S1024x1024 .f32) (main_arg13 : FVec F S1024x1024 .f32) (main_arg14 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S2048x4096 : Shape := ⟨2, ![2048, 4096]⟩
abbrev S1x4096 : Shape := ⟨2, ![1, 4096]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 25
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096, .f32⟩
  | .hbm, ⟨18, _⟩ => ⟨S1024x4096, .f32⟩
  | .hbm, ⟨19, _⟩ => ⟨S1024x4096, .f32⟩
  | .hbm, ⟨20, _⟩ => ⟨S2048x4096, .f32⟩
  | .hbm, ⟨21, _⟩ => ⟨S2048x4096, .bf16⟩
  | .hbm, ⟨22, _⟩ => ⟨S1x4096, .f32⟩
  | .hbm, ⟨23, _⟩ => ⟨S16384x1024, .f32⟩
  | .hbm, ⟨24, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  concatenates_S1024x4096_S1024x4096_S2048x4096_d0 : Shape.Concatenates [S1024x4096, S1024x4096] S2048x4096 0
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S16384x4096 : Shape := ⟨2, ![16384, 4096]⟩
abbrev S1x4096 : Shape := ⟨2, ![1, 4096]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096, .f32⟩
  | .hbm, ⟨18, _⟩ => ⟨S1024x4096, .f32⟩
  | .hbm, ⟨19, _⟩ => ⟨S16384x4096, .f32⟩
  | .hbm, ⟨20, _⟩ => ⟨S1024x4096, .f32⟩
  | .hbm, ⟨21, _⟩ => ⟨S16384x4096, .f32⟩
  | .hbm, ⟨22, _⟩ => ⟨S16384x4096, .f32⟩
  | .hbm, ⟨23, _⟩ => ⟨S1x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.FrameKernel.lean ====
/-
  The frame of the LSTM-cell program: it runs to the end, faults nowhere, and leaves its fifteen argument arrays as
  they were — at any reading `F` of the floats.

  @main is eight host operations (the three four-way joins of the gate weights and biases, two transposes, the join of
  the two transposed stacks, the rounding to bf16 and the bias as one row) and then ONE region over a grid of 64 points.
  At point `t` the region hands the body rows 256·t … 256·t+255 of x, h and c, the whole fused weight and the whole
  bias row, and takes back two [256, 1024] blocks: the new hidden state and the new cell state.
  The body only loads its five inputs whole, computes, and stores each output block whole. So:
    • what each output's staging buffer holds after the body is ONE store covering it, of the body's value for that
      output computed from the five input blocks (`hiddenBlock`, `cellBlock`);
    • every input's staging buffer holds its block of the array as the region found it, at every point — also the
      weight and the bias, which are fetched once, at the first point, and whose block index never moves;
    • no host operation writes an argument, and the region writes only its two results: the arguments end unchanged.
-/
import proofs.«114826_j86792699117977_2_alg».proof.Proof.Gen.Kernel.Launch
import proofs.«114826_j86792699117977_2_alg».proof.Proof.Gen.Kernel.Skeleton
import proofs.«114826_j86792699117977_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.CellFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the eight host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is its host operations and then the region, which finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each host operation writes only its own result, and no result is an argument: the region finds every argument as
launched. -/

theorem entry_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, whether the point fetches it or not (where it is
not fetched its block index has not moved), for any proof data over `V` whose body leaves the block in place. -/

theorem held0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- In a final state where every window's array is what the proof data computes and every other buffer is as the region
    found it, the fifteen arguments are as launched: x, h and c are input windows' arrays (never written back), the twelve
    weights and biases bypass the region. -/
theorem args_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c)⟩

/-- So a run to such states is a run that leaves the arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_of_post m dats hA r h c) h

/-! ## What the body leaves in the two output buffers -/

/-- The whole [256, 1024] block: every load of a row block and both stores go through it. -/
abbrev rowsRect : Rect S256x1024 := Rect.unit (s := S256x1024) ![0, 0] S256x1024.size inb_S256x1024_S256x1024_0_0
/-- The whole fused weight. -/
abbrev weightRect : Rect S2048x4096 := Rect.unit (s := S2048x4096) ![0, 0] S2048x4096.size inb_S2048x4096_S2048x4096_0_0
/-- The whole bias row. -/
abbrev biasRect : Rect S1x4096 := Rect.unit (s := S1x4096) ![0, 0] S1x4096.size inb_S1x4096_S1x4096_0_0

/-- The new hidden state's buffer after the body: one store of the body's value for it, from the five input blocks. -/
def hiddenBlock (x h cs : Vec F S256x1024 .f32) (w : Vec F S2048x4096 .bf16) (b : Vec F S1x4096 .f32) : Vec F S256x1024 .f32 :=
  View.canon [⟨rowsRect, k0_pay3 (View.ld x rowsRect) (View.ld h rowsRect) (View.ld w weightRect) (View.ld b biasRect) (View.ld cs rowsRect)⟩]

/-- The new cell state's buffer after the body, likewise. -/
def cellBlock (x h cs : Vec F S256x1024 .f32) (w : Vec F S2048x4096 .bf16) (b : Vec F S1x4096 .f32) : Vec F S256x1024 .f32 :=
  View.canon [⟨rowsRect, k0_pay2 (View.ld x rowsRect) (View.ld h rowsRect) (View.ld w weightRect) (View.ld b biasRect) (View.ld cs rowsRect)⟩]

/-- One store of the whole block covers the buffer. -/
theorem rows_cover (p0 : Vec F S256x1024 .f32) (y : S256x1024.Idx) :
    ∃ pc ∈ ([⟨rowsRect, p0⟩] : List (View.Piece (Elt F) S256x1024 .f32)), y ∈ pc.1.set :=
  View.cover_of_tiled [⟨rowsRect, p0⟩] S256x1024.size (by rfl) y

/-! ## The body's triple -/

set_option maxHeartbeats 1000000 in
/-- The body on whole staging buffers — the five inputs' at contents `x h cs w b`, the two outputs' at anything — runs
    to its continuation with the inputs' as they were and the outputs' at `hiddenBlock` and `cellBlock` of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x h cs : Vec F S256x1024 .f32) (w : Vec F S2048x4096 .bf16) (b : Vec F S1x4096 .f32) (K : PUnit → sProp 𝕄) :
    iprop(owns (c : Thread nD τ) arg1 fullShare x ∗ owns (c : Thread nD τ) arg2 fullShare h ∗ owns (c : Thread nD τ) arg3 fullShare cs
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare cs
            ∗ owns (c : Thread nD τ) arg4 fullShare w ∗ owns (c : Thread nD τ) arg5 fullShare b
            ∗ owns (c : Thread nD τ) arg6 fullShare (hiddenBlock x h cs w b) ∗ owns (c : Thread nD τ) arg7 fullShare (cellBlock x h cs w b)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (rows_cover _)
  iexists _; isplitr
  swap; · iexact H6
  ipureintro
  exact View.read_writes_eq_canon _ _ _ (rows_cover _)

/-! ## The pipeline's proof data -/

/-- On core `c`: the arrays as the region finds them; after the body at point `t` each input's buffer at its block and
    each output's at the body's block of the input blocks; the kernel keeps nothing of its own, owes nothing, and holds
    every buffer in full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hiddenBlock (iblk m c 0 t) (iblk m c 1 t) (iblk m c 2 t) (iblk m c 3 t) (iblk m c 4 t)
    | ⟨6, _⟩ => cellBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t
    = hiddenBlock (iblk m c 0 t) (iblk m c 1 t) (iblk m c 2 t) (iblk m c 3 t) (iblk m c 4 t) := by dsimp only [dats]
theorem after6 (c : Dev nD) (t : Fin cfg0.N) : (dats m 0 c).after 6 t
    = cellBlock (iblk m c 0 t) (iblk m c 1 t) (iblk m c 2 t) (iblk m c 3 t) (iblk m c 4 t) := by dsimp only [dats]

theorem held0 (c : Dev nD) (t : Fin cfg0.N) (d) : (dats m 0 c).before 0 t d = iblk m c 0 t :=
  held0_of m (dats m 0 c) (A_eq m c 0) (after0 m c) t d
theorem held1 (c : Dev nD) (t : Fin cfg0.N) (d) : (dats m 0 c).before 1 t d = iblk m c 1 t :=
  held1_of m (dats m 0 c) (A_eq m c 1) (after1 m c) t d
theorem held2 (c : Dev nD) (t : Fin cfg0.N) (d) : (dats m 0 c).before 2 t d = iblk m c 2 t :=
  held2_of m (dats m 0 c) (A_eq m c 2) (after2 m c) t d
theorem held3 (c : Dev nD) (t : Fin cfg0.N) (d) : (dats m 0 c).before 3 t d = iblk m c 3 t :=
  held3_of m (dats m 0 c) (A_eq m c 3) (after3 m c) t d
theorem held4 (c : Dev nD) (t : Fin cfg0.N) (d) : (dats m 0 c).before 4 t d = iblk m c 4 t :=
  held4_of m (dats m 0 c) (A_eq m c 4) (after4 m c) t d

/-! ## The body obligation -/

/-- What the body is called with at point `t`, the seven windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any point the inputs' buffers hold their blocks, so the body's triple applies; what the kernel does not touch
    passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, without a fault, with each window's array at what the proof data
    computes from the body's blocks and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.CellFrame

end
-- ==== Proof.FrameKernelIdeal.lean ====
/-
  The frame of the LSTM-cell program: it runs to the end, faults nowhere, and leaves its fifteen argument arrays as
  they were — at any reading `F` of the floats.

  @main is eight host operations (the three four-way joins of the gate weights and biases, two transposes, the join of
  the two transposed stacks, the rounding to bf16 and the bias as one row) and then ONE region over a grid of 64 points.
  At point `t` the region hands the body rows 256·t … 256·t+255 of x, h and c, the whole fused weight and the whole
  bias row, and takes back two [256, 1024] blocks: the new hidden state and the new cell state.
  The body only loads its five inputs whole, computes, and stores each output block whole. So:
    • what each output's staging buffer holds after the body is ONE store covering it, of the body's value for that
      output computed from the five input blocks (`hiddenBlock`, `cellBlock`);
    • every input's staging buffer holds its block of the array as the region found it, at every point — also the
      weight and the bias, which are fetched once, at the first point, and whose block index never moves;
    • no host operation writes an argument, and the region writes only its two results: the arguments end unchanged.
-/
import proofs.«114826_j86792699117977_2_alg».proof.Proof.Gen.KernelIdeal.Launch
import proofs.«114826_j86792699117977_2_alg».proof.Proof.Gen.KernelIdeal.Skeleton
import proofs.«114826_j86792699117977_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.CellFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the eight host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is its host operations and then the region, which finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each host operation writes only its own result, and no result is an argument: the region finds every argument as
launched. -/

theorem entry_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
theorem entry_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, whether the point fetches it or not (where it is
not fetched its block index has not moved), for any proof data over `V` whose body leaves the block in place. -/

theorem held0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- In a final state where every window's array is what the proof data computes and every other buffer is as the region
    found it, the fifteen arguments are as launched: x, h and c are input windows' arrays (never written back), the twelve
    weights and biases bypass the region. -/
theorem args_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c)⟩

/-- So a run to such states is a run that leaves the arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_of_post m dats hA r h c) h

/-! ## What the body leaves in the two output buffers -/

/-- The whole [256, 1024] block: every load of a row block and both stores go through it. -/
abbrev rowsRect : Rect S256x1024 := Rect.unit (s := S256x1024) ![0, 0] S256x1024.size inb_S256x1024_S256x1024_0_0
/-- The whole fused weight. -/
abbrev weightRect : Rect S2048x4096 := Rect.unit (s := S2048x4096) ![0, 0] S2048x4096.size inb_S2048x4096_S2048x4096_0_0
/-- The whole bias row. -/
abbrev biasRect : Rect S1x4096 := Rect.unit (s := S1x4096) ![0, 0] S1x4096.size inb_S1x4096_S1x4096_0_0

/-- The new hidden state's buffer after the body: one store of the body's value for it, from the five input blocks. -/
def hiddenBlock (x h cs : Vec F S256x1024 .f32) (w : Vec F S2048x4096 .bf16) (b : Vec F S1x4096 .f32) : Vec F S256x1024 .f32 :=
  View.canon [⟨rowsRect, k0_pay3 (View.ld x rowsRect) (View.ld h rowsRect) (View.ld w weightRect) (View.ld b biasRect) (View.ld cs rowsRect)⟩]

/-- The new cell state's buffer after the body, likewise. -/
def cellBlock (x h cs : Vec F S256x1024 .f32) (w : Vec F S2048x4096 .bf16) (b : Vec F S1x4096 .f32) : Vec F S256x1024 .f32 :=
  View.canon [⟨rowsRect, k0_pay2 (View.ld x rowsRect) (View.ld h rowsRect) (View.ld w weightRect) (View.ld b biasRect) (View.ld cs rowsRect)⟩]

/-- One store of the whole block covers the buffer. -/
theorem rows_cover (p0 : Vec F S256x1024 .f32) (y : S256x1024.Idx) :
    ∃ pc ∈ ([⟨rowsRect, p0⟩] : List (View.Piece (Elt F) S256x1024 .f32)), y ∈ pc.1.set :=
  View.cover_of_tiled [⟨rowsRect, p0⟩] S256x1024.size (by rfl) y

/-! ## The body's triple -/

set_option maxHeartbeats 1000000 in
/-- The body on whole staging buffers — the five inputs' at contents `x h cs w b`, the two outputs' at anything — runs
    to its continuation with the inputs' as they were and the outputs' at `hiddenBlock` and `cellBlock` of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x h cs : Vec F S256x1024 .f32) (w : Vec F S2048x4096 .bf16) (b : Vec F S1x4096 .f32) (K : PUnit → sProp 𝕄) :
    iprop(owns (c : Thread nD τ) arg1 fullShare x ∗ owns (c : Thread nD τ) arg2 fullShare h ∗ owns (c : Thread nD τ) arg3 fullShare cs
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare cs
            ∗ owns (c : Thread nD τ) arg4 fullShare w ∗ owns (c : Thread nD τ) arg5 fullShare b
            ∗ owns (c : Thread nD τ) arg6 fullShare (hiddenBlock x h cs w b) ∗ owns (c : Thread nD τ) arg7 fullShare (cellBlock x h cs w b)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (rows_cover _)
  iexists _; isplitr
  swap; · iexact H6
  ipureintro
  exact View.read_writes_eq_canon _ _ _ (rows_cover _)

/-! ## The pipeline's proof data -/

/-- On core `c`: the arrays as the region finds them; after the body at point `t` each input's buffer at its block and
    each output's at the body's block of the input blocks; the kernel keeps nothing of its own, owes nothing, and holds
    every buffer in full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hiddenBlock (iblk m c 0 t) (iblk m c 1 t) (iblk m c 2 t) (iblk m c 3 t) (iblk m c 4 t)
    | ⟨6, _⟩ => cellBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t
    = hiddenBlock (iblk m c 0 t) (iblk m c 1 t) (iblk m c 2 t) (iblk m c 3 t) (iblk m c 4 t) := by dsimp only [dats]
theorem after6 (c : Dev nD) (t : Fin cfg0.N) : (dats m 0 c).after 6 t
    = cellBlock (iblk m c 0 t) (iblk m c 1 t) (iblk m c 2 t) (iblk m c 3 t) (iblk m c 4 t) := by dsimp only [dats]

theorem held0 (c : Dev nD) (t : Fin cfg0.N) (d) : (dats m 0 c).before 0 t d = iblk m c 0 t :=
  held0_of m (dats m 0 c) (A_eq m c 0) (after0 m c) t d
theorem held1 (c : Dev nD) (t : Fin cfg0.N) (d) : (dats m 0 c).before 1 t d = iblk m c 1 t :=
  held1_of m (dats m 0 c) (A_eq m c 1) (after1 m c) t d
theorem held2 (c : Dev nD) (t : Fin cfg0.N) (d) : (dats m 0 c).before 2 t d = iblk m c 2 t :=
  held2_of m (dats m 0 c) (A_eq m c 2) (after2 m c) t d
theorem held3 (c : Dev nD) (t : Fin cfg0.N) (d) : (dats m 0 c).before 3 t d = iblk m c 3 t :=
  held3_of m (dats m 0 c) (A_eq m c 3) (after3 m c) t d
theorem held4 (c : Dev nD) (t : Fin cfg0.N) (d) : (dats m 0 c).before 4 t d = iblk m c 4 t :=
  held4_of m (dats m 0 c) (A_eq m c 4) (after4 m c) t d

/-! ## The body obligation -/

/-- What the body is called with at point `t`, the seven windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any point the inputs' buffers hold their blocks, so the body's triple applies; what the kernel does not touch
    passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, without a fault, with each window's array at what the proof data
    computes from the body's blocks and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.CellFrame

end
-- ==== Proof.HostPrefix.lean ====
/-
  What the region finds in its two host-built operands, entry by entry, on the extended reals.

  Before the region the host stacks the four input-side gate matrices along their rows into Wi [4096, 1024], the four
  hidden-side ones into Wh, and lays the four biases end to end into b [4096]. The fused weight the kernel multiplies by
  is  [Wiᵀ ; Whᵀ]  of shape [2048, 4096] — its row k < 1024 is column k of Wi, its row 1024 + k is column k of Wh —
  rounded to bf16, which on the extended reals changes nothing; the bias operand is b as one row.
  So entry (k, n) of the fused weight is Wi[n, k] for k < 1024 and Wh[n, k − 1024] from there on, and entry (0, n) of
  the bias row is b[n]. The three stacks themselves are never opened.
-/
import proofs.«114826_j86792699117977_2_alg».proof.Proof.FrameKernelIdeal
import Idealize.ShloMosaic.Lib.Pipeline.Value
import Idealize.ShloMosaic.Lib.StableHlo.Run
import Idealize.ShloMosaic.Lib.ValueIdx

noncomputable section

namespace Cert.KernelIdeal.HostPrefix

open Cert.KernelIdeal Cert.KernelIdeal.Gen Cert.KernelIdeal.CellFrame
open Idealize.ShloMosaic Idealize.ShloMosaic.TcCoe Idealize.SL.Sem Idealize.ShloMosaic.StableHlo Idealize.ShloMosaic.ValueIdx

/-- Four gate matrices stacked along their rows. -/
def stackW (a b c d : (⟨S1024x1024, .f32⟩ : BufTy).Contents (Elt Ideal)) : (⟨S4096x1024, .f32⟩ : BufTy).Contents (Elt Ideal) :=
  concatenate S4096x1024 0 [⟨S1024x1024, a⟩, ⟨S1024x1024, b⟩, ⟨S1024x1024, c⟩, ⟨S1024x1024, d⟩] concatenates_S1024x1024_S1024x1024_S1024x1024_S1024x1024_S4096x1024_d0

/-- Four gate biases laid end to end. -/
def stackB (a b c d : (⟨S1024, .f32⟩ : BufTy).Contents (Elt Ideal)) : (⟨S4096, .f32⟩ : BufTy).Contents (Elt Ideal) :=
  concatenate S4096 0 [⟨S1024, a⟩, ⟨S1024, b⟩, ⟨S1024, c⟩, ⟨S1024, d⟩] concatenates_S1024_S1024_S1024_S1024_S4096_d0

variable (m : (ℓ : Loc nD τ sig) → Buf (Elt Ideal) ℓ)

/-- An argument array as launched on core `c`. -/
abbrev arg (c : Dev nD) (b : Ref sig .tc) : Buf (Elt Ideal) ((c : Thread nD τ).loc b) := m ((c : Thread nD τ).loc b)

/-- The input-side stack of the launch memory. -/
abbrev wi (c : Dev nD) := stackW (arg m c main_arg3) (arg m c main_arg4) (arg m c main_arg5) (arg m c main_arg6)
/-- The hidden-side stack. -/
abbrev wh (c : Dev nD) := stackW (arg m c main_arg11) (arg m c main_arg12) (arg m c main_arg13) (arg m c main_arg14)
/-- The bias stack. -/
abbrev bs (c : Dev nD) := stackB (arg m c main_arg7) (arg m c main_arg8) (arg m c main_arg9) (arg m c main_arg10)

set_option maxHeartbeats 400000 in
/-- The fused-weight operand as the region finds it: the two transposed stacks joined along the rows, rounded. -/
theorem entry_weight (c : Dev nD) :
    (V m c main_v6 : (⟨S2048x4096, .bf16⟩ : BufTy).Contents (Elt Ideal)) =
      truncf (F := Ideal) .bf16 (concatenate S2048x4096 0
        [⟨S1024x4096, transpose S1024x4096 [1, 0] (wi m c) transposes_S4096x1024_S1024x4096_1_0⟩,
         ⟨S1024x4096, transpose S1024x4096 [1, 0] (wh m c) transposes_S4096x1024_S1024x4096_1_0⟩]
        concatenates_S1024x4096_S1024x4096_S2048x4096_d0) bitsLt_bf16_f32 := by
  dsimp only [V, hostOps0]
  after_results
  rfl

set_option maxHeartbeats 400000 in
/-- The bias operand as the region finds it: the bias stack as one row. -/
theorem entry_bias (c : Dev nD) :
    (V m c main_v7 : (⟨S1x4096, .f32⟩ : BufTy).Contents (Elt Ideal)) = shapeCast S1x4096 (bs m c) shapeCasts_S4096_S1x4096 := by
  dsimp only [V, hostOps0]
  after_results
  rfl

/-- Row `k < 1024` of the fused weight is column `k` of the input-side stack. -/
theorem weight_lo (c : Dev nD) (k : Fin 1024) (n : Fin 4096) :
    (V m c main_v6 : (⟨S2048x4096, .bf16⟩ : BufTy).Contents (Elt Ideal)) (ix2 (⟨k.val, by have := k.isLt; omega⟩ : Fin 2048) n)
      = wi m c (ix2 n k) := by
  refine (congrFun (entry_weight m c) _).trans ?_
  refine (truncf_apply (φ := .f32) (ψ := .bf16) _ bitsLt_bf16_f32 _).trans ?_
  refine (concatenate_pair_apply_left (t := S2048x4096) (s₁ := S1024x4096) (s₂ := S1024x4096) 0 _ _ _
    (ix2 (⟨k.val, by have := k.isLt; omega⟩ : Fin 2048) n) rfl (ix2 k n) ?_).trans ?_
  · intro b
    match b with
    | ⟨0, _⟩ => rfl
    | ⟨1, _⟩ => rfl
  · exact transpose_apply [1, 0] _ _ (ix2 k n) (ix2 n k) (fun b => match b with | ⟨0, _⟩ => rfl | ⟨1, _⟩ => rfl)

/-- Row `1024 + k` of the fused weight is column `k` of the hidden-side stack. -/
theorem weight_hi (c : Dev nD) (k : Fin 1024) (n : Fin 4096) :
    (V m c main_v6 : (⟨S2048x4096, .bf16⟩ : BufTy).Contents (Elt Ideal)) (ix2 (⟨1024 + k.val, by have := k.isLt; omega⟩ : Fin 2048) n)
      = wh m c (ix2 n k) := by
  refine (congrFun (entry_weight m c) _).trans ?_
  refine (truncf_apply (φ := .f32) (ψ := .bf16) _ bitsLt_bf16_f32 _).trans ?_
  refine (concatenate_pair_apply_right (t := S2048x4096) (s₁ := S1024x4096) (s₂ := S1024x4096) 0 _ _ _
    (ix2 (⟨1024 + k.val, by have := k.isLt; omega⟩ : Fin 2048) n) rfl rfl (ix2 k n) ?_ ?_).trans ?_
  · intro b hb
    match b, hb with
    | ⟨0, _⟩, hb => exact absurd rfl hb
    | ⟨1, _⟩, _ => rfl
  · show k.val + 1024 = 1024 + k.val
    omega
  · exact transpose_apply [1, 0] _ _ (ix2 k n) (ix2 n k) (fun b => match b with | ⟨0, _⟩ => rfl | ⟨1, _⟩ => rfl)

/-- Entry `n` of the bias row is entry `n` of the bias stack. -/
theorem bias_at (c : Dev nD) (n : Fin 4096) :
    (V m c main_v7 : (⟨S1x4096, .f32⟩ : BufTy).Contents (Elt Ideal)) (ix2 (0 : Fin 1) n) = bs m c (ix1 n) := by
  refine (congrFun (entry_bias m c) _).trans ?_
  refine (shapeCast_addUnit_apply ![4096] _ _ (ix2 (0 : Fin 1) n)).trans ?_
  exact congrArg _ (funext fun a => by match a with | ⟨0, _⟩ => rfl)

end Cert.KernelIdeal.HostPrefix

end
-- ==== Proof.Spec.lean ====
/-
  The LSTM cell as one function of its arguments, entry by entry, on the extended reals.

  For a batch row `r` and a stacked gate row `n` (the four gates' weight rows laid one after the other: input, forget,
  cell, output, 1024 rows each) the pre-activation is
      pre r n = (∑ k, x[r, k] · Wi[n, k] + ∑ k, h[r, k] · Wh[n, k]) + b[n],
  and with σ the logistic function
      c'[r, j] = σ (pre r (1024 + j)) · c[r, j] + σ (pre r j) · tanh (pre r (2048 + j)),
      h'[r, j] = σ (pre r (3072 + j)) · tanh (c'[r, j]).
  A sum over a joined axis of 1024 + 1024 terms is the sum of its two halves: addition of extended reals is
  commutative and associative (no cancellation is used), so this needs no finiteness.
-/
import Idealize.ShloMosaic.Lib.ValueIdx
import Idealize.ShloMosaic.PureOps.Ideal

noncomputable section

namespace Cert.LstmCell

open Idealize.ShloMosaic Idealize.ShloMosaic.ValueIdx

/-- A batch of feature rows, [16384, 1024]. -/
abbrev Act := (⟨2, ![16384, 1024]⟩ : Shape).Idx → EReal
/-- The four gates' weight matrices stacked along their rows, [4096, 1024]. -/
abbrev Stack := (⟨2, ![4096, 1024]⟩ : Shape).Idx → EReal
/-- The four gates' biases laid end to end, [4096]. -/
abbrev Bias := (⟨1, ![4096]⟩ : Shape).Idx → EReal

/-- Row `o + j` of the stack: feature `j` of the gate whose rows start at `o`. -/
def gateRow (o : ℕ) (ho : o + 1024 ≤ 4096) (j : Fin 1024) : Fin 4096 := ⟨o + j.val, by have := j.isLt; omega⟩

/-- The pre-activation of stacked gate row `n` on batch row `r`. -/
def pre (x h : Act) (wi wh : Stack) (b : Bias) (r : Fin 16384) (n : Fin 4096) : EReal :=
  (∑ k : Fin 1024, x (ix2 r k) * wi (ix2 n k) + ∑ k : Fin 1024, h (ix2 r k) * wh (ix2 n k)) + b (ix1 n)

/-- The new cell state at batch row `r`, feature `j`. -/
def cNew (x h c : Act) (wi wh : Stack) (b : Bias) (r : Fin 16384) (j : Fin 1024) : EReal :=
  Ideal.logistic (pre x h wi wh b r (gateRow 1024 (by norm_num) j)) * c (ix2 r j)
    + Ideal.logistic (pre x h wi wh b r (gateRow 0 (by norm_num) j)) * Ideal.tanh (pre x h wi wh b r (gateRow 2048 (by norm_num) j))

/-- The new hidden state at batch row `r`, feature `j`. -/
def hNew (x h c : Act) (wi wh : Stack) (b : Bias) (r : Fin 16384) (j : Fin 1024) : EReal :=
  Ideal.logistic (pre x h wi wh b r (gateRow 3072 (by norm_num) j)) * Ideal.tanh (cNew x h c wi wh b r j)

/-- The new cell state as an array. -/
def cellOut (x h c : Act) (wi wh : Stack) (b : Bias) : Act := fun i => cNew x h c wi wh b (i 0) (i 1)
/-- The new hidden state as an array. -/
def hiddenOut (x h c : Act) (wi wh : Stack) (b : Bias) : Act := fun i => hNew x h c wi wh b (i 0) (i 1)

/-- A sum over 2048 terms whose first 1024 are `f` and whose last 1024 are `g` is `∑ f + ∑ g`. -/
theorem sum_joined (u : Fin 2048 → EReal) (f g : Fin 1024 → EReal)
    (hlo : ∀ k : Fin 1024, u ⟨k.val, by have := k.isLt; omega⟩ = f k)
    (hhi : ∀ k : Fin 1024, u ⟨1024 + k.val, by have := k.isLt; omega⟩ = g k) :
    ∑ k : Fin 2048, u k = ∑ k : Fin 1024, f k + ∑ k : Fin 1024, g k := by
  have e := Fin.sum_univ_add (M := EReal) (a := 1024) (b := 1024) (fun k : Fin (1024 + 1024) => u ⟨k.val, k.isLt⟩)
  have e0 : ∑ k : Fin 2048, u k = ∑ k : Fin (1024 + 1024), u ⟨k.val, k.isLt⟩ :=
    Fintype.sum_equiv (finCongr (by norm_num)) _ _ (fun k => rfl)
  exact e0.trans (e.trans (congrArg₂ (· + ·) (Finset.sum_congr rfl fun k _ => hlo k) (Finset.sum_congr rfl fun k _ => hhi k)))

end Cert.LstmCell

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.KernelCell.lean ====
/-
  The kernel body's two stored values, read at one entry of a block, are the LSTM cell's specification.

  The body joins the x block and the h block along the feature axis into a [256, 2048] matrix, multiplies it by the
  [2048, 4096] weight block into a zero accumulator and adds the bias row to every row. At entry (p, n) that is
      ∑ k < 2048, xh[p, k] · w[k, n] + bias[0, n],
  and the sum over the joined axis is the sum of its two halves (`sum_joined`): the first 1024 terms are
  x[p, k] · w[k, n], the last 1024 are h[p, k] · w[1024 + k, n]. When block row p is batch row r of X and H, the weight
  block's first 1024 rows are Wi transposed and its last 1024 rows Wh transposed, and the bias row is b, this is the
  pre-activation `pre X H wi wh b r n` (`gates_at`). The format changes on the way into the product are the identity
  on the extended reals.

  The new cell state takes the lanes 0.., 1024.., 2048.. of the gates at feature j — the stacked rows j, 1024 + j,
  2048 + j — through the logistic function, the logistic function and tanh, and forms f · c + i · g; the new hidden
  state takes lane 3072 + j through the logistic function and multiplies by tanh of the new cell state. Both are the
  specification's formulas at (r, j) term by term (`cell_block`).
-/
import proofs.«114826_j86792699117977_2_alg».proof.Proof.Gen.KernelIdeal.Skeleton
import proofs.«114826_j86792699117977_2_alg».proof.Proof.Spec
import proofs.«114826_j86792699117977_2_alg».proof.Proof.LibPlainProduct
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.CellValue

open Cert.KernelIdeal Cert.KernelIdeal.Gen Idealize.ShloMosaic Idealize.ShloMosaic.ValueIdx Cert.LstmCell
open Cert.KernelIdeal.Facts₀ Cert.KernelIdeal.Facts

variable [Cert.KernelIdeal.Facts]

/-! ## The product's dimension record: which operand entries an output entry reads -/

/-- The left operand's row is the output's row. -/
theorem lhs_row (i : S256x4096.Idx) (q : dot_S256x2048_S2048x4096_S256x4096_1_0_0_1_n_n.contr.Idx) :
    (dot_S256x2048_S2048x4096_S256x4096_1_0_0_1_n_n.lhsIdx i q 0).val = (i 0).val := by
  unfold DotDims.lhsIdx
  rw [dif_neg (show ¬(0 : Fin S256x2048.rank) ∈ dot_S256x2048_S2048x4096_S256x4096_1_0_0_1_n_n.lhsBatch by decide), dif_pos (show (0 : Fin S256x2048.rank) ∈ dot_S256x2048_S2048x4096_S256x4096_1_0_0_1_n_n.lhsNonContracting by decide)]
  rfl
/-- The left operand's column is the contraction coordinate. -/
theorem lhs_col (i : S256x4096.Idx) (q : dot_S256x2048_S2048x4096_S256x4096_1_0_0_1_n_n.contr.Idx) :
    (dot_S256x2048_S2048x4096_S256x4096_1_0_0_1_n_n.lhsIdx i q 1).val = (q ⟨0, by decide⟩).val :=
  dot_S256x2048_S2048x4096_S256x4096_1_0_0_1_n_n.lhsIdx_val_of_single rfl i q
/-- The right operand's row is the contraction coordinate. -/
theorem rhs_row (i : S256x4096.Idx) (q : dot_S256x2048_S2048x4096_S256x4096_1_0_0_1_n_n.contr.Idx) :
    (dot_S256x2048_S2048x4096_S256x4096_1_0_0_1_n_n.rhsIdx i q 0).val = (q ⟨0, by decide⟩).val :=
  dot_S256x2048_S2048x4096_S256x4096_1_0_0_1_n_n.rhsIdx_val_of_single rfl i q
/-- The right operand's column is the output's column. -/
theorem rhs_col (i : S256x4096.Idx) (q : dot_S256x2048_S2048x4096_S256x4096_1_0_0_1_n_n.contr.Idx) :
    (dot_S256x2048_S2048x4096_S256x4096_1_0_0_1_n_n.rhsIdx i q 1).val = (i 1).val := by
  unfold DotDims.rhsIdx
  rw [dif_neg (show ¬(1 : Fin S2048x4096.rank) ∈ dot_S256x2048_S2048x4096_S256x4096_1_0_0_1_n_n.rhsBatch by decide), dif_pos (show (1 : Fin S2048x4096.rank) ∈ dot_S256x2048_S2048x4096_S256x4096_1_0_0_1_n_n.rhsNonContracting by decide)]
  rfl

/-- Entry (p, n) of the product of a [256, 2048] matrix and a [2048, 4096] matrix into the zero accumulator. -/
theorem product_at {φ₁ φ₂ : FTy} (l : FVec Ideal S256x2048 φ₁) (r : FVec Ideal S2048x4096 φ₂) (p : Fin 256) (n : Fin 4096) :
    FloatOps.matmul dot_S256x2048_S2048x4096_S256x4096_1_0_0_1_n_n none l r (constant (F := Ideal) S256x4096 .f32 0x00000000#32) (ix2 p n)
      = ∑ k : Fin 2048, l (ix2 p k) * r (ix2 k n) :=
  Cert.PlainProduct.matmul_zero_entry (M := 256) (K := 2048) (N := 4096) dot_S256x2048_S2048x4096_S256x4096_1_0_0_1_n_n
    rfl rfl lhs_row lhs_col rhs_row rhs_col l r p n

/-! ## The gates -/

/-- The gates at block entry (p, n) are the pre-activation of stacked row n on batch row r: the product over the joined
    axis splits into the x half against Wi's row n and the h half against Wh's row n, and the bias row adds b[n]. -/
theorem gates_at (x0 x2 : FVec Ideal S256x1024 .f32) (w : FVec Ideal S2048x4096 .bf16) (bias : FVec Ideal S1x4096 .f32)
    (X H : Act) (wi wh : Stack) (b : Bias) (r : Fin 16384) (p : Fin 256)
    (hx : ∀ k : Fin 1024, x0 (ix2 p k) = X (ix2 r k)) (hh : ∀ k : Fin 1024, x2 (ix2 p k) = H (ix2 r k))
    (hwi : ∀ (k : Fin 1024) (n : Fin 4096), w (ix2 (⟨k.val, by have := k.isLt; omega⟩ : Fin 2048) n) = wi (ix2 n k))
    (hwh : ∀ (k : Fin 1024) (n : Fin 4096), w (ix2 (⟨1024 + k.val, by have := k.isLt; omega⟩ : Fin 2048) n) = wh (ix2 n k))
    (hb : ∀ n : Fin 4096, bias (ix2 (0 : Fin 1) n) = b (ix1 n)) (n : Fin 4096) :
    k0_pay1 (F := Ideal) x0 x2 w bias (ix2 p n) = pre X H wi wh b r n := by
  unfold k0_pay1 pre
  refine (addf_apply _ _ _).trans (congrArg₂ (· + ·) ?_ ?_)
  · -- the product, entry by entry, then the joined axis in its two halves
    refine (product_at _ _ p n).trans (sum_joined _ _ _ (fun k => congrArg₂ (· * ·) ?_ ?_) (fun k => congrArg₂ (· * ·) ?_ ?_))
    · refine (concatenate_pair_apply_left (t := S256x2048) (s₁ := S256x1024) (s₂ := S256x1024) 1 _ _ _ (ix2 p (⟨k.val, by have := k.isLt; omega⟩ : Fin 2048)) rfl (ix2 p k) (fun a => match a with
        | ⟨0, _⟩ => rfl
        | ⟨1, _⟩ => rfl)).trans ?_
      exact (truncf_apply (ψ := .bf16) x0 _ (ix2 p k)).trans (hx k)
    · exact (congrFun (shapeCast_self w _) _).trans (hwi k n)
    · refine (concatenate_pair_apply_right (t := S256x2048) (s₁ := S256x1024) (s₂ := S256x1024) 1 _ _ _ (ix2 p (⟨1024 + k.val, by have := k.isLt; omega⟩ : Fin 2048)) rfl rfl (ix2 p k) (fun a ha => match a, ha with
        | ⟨0, _⟩, _ => rfl
        | ⟨1, _⟩, ha => absurd rfl ha) (by show k.val + 1024 = 1024 + k.val; omega)).trans ?_
      exact (truncf_apply (ψ := .bf16) x2 _ (ix2 p k)).trans (hh k)
    · exact (congrFun (shapeCast_self w _) _).trans (hwh k n)
  · -- the bias row, the same on every row of the block
    refine (broadcastTo_apply _ _ (ix2 p n) (ix2 (0 : Fin 1) n) (fun a => match a with
      | ⟨0, _⟩ => rfl
      | ⟨1, _⟩ => rfl)).trans ?_
    exact (congrFun (shapeCast_self bias _) _).trans (hb n)

/-! ## The two stored values -/

/-- Lane o + j of the gates at block row p is the pre-activation of the stacked row o + j on batch row r. -/
theorem lane_at (x0 x2 : FVec Ideal S256x1024 .f32) (w : FVec Ideal S2048x4096 .bf16) (bias : FVec Ideal S1x4096 .f32)
    (X H : Act) (wi wh : Stack) (b : Bias) (r : Fin 16384) (p : Fin 256)
    (hx : ∀ k : Fin 1024, x0 (ix2 p k) = X (ix2 r k)) (hh : ∀ k : Fin 1024, x2 (ix2 p k) = H (ix2 r k))
    (hwi : ∀ (k : Fin 1024) (n : Fin 4096), w (ix2 (⟨k.val, by have := k.isLt; omega⟩ : Fin 2048) n) = wi (ix2 n k))
    (hwh : ∀ (k : Fin 1024) (n : Fin 4096), w (ix2 (⟨1024 + k.val, by have := k.isLt; omega⟩ : Fin 2048) n) = wh (ix2 n k))
    (hb : ∀ n : Fin 4096, bias (ix2 (0 : Fin 1) n) = b (ix1 n))
    (o : ℕ) (ho : o + 1024 ≤ 4096) (hs : S256x4096.Slices ![0, o] S256x1024) (j : Fin 1024) :
    extractStridedSlice S256x1024 ![0, o] (k0_pay1 (F := Ideal) x0 x2 w bias) hs (ix2 p j)
      = pre X H wi wh b r (gateRow o ho j) :=
  (extractStridedSlice_apply ![0, o] (k0_pay1 (F := Ideal) x0 x2 w bias) hs (ix2 p j) (ix2 p (gateRow o ho j)) (fun a => match a with
    | ⟨0, _⟩ => by show p.val = 0 + p.val; omega
    | ⟨1, _⟩ => rfl)).trans (gates_at x0 x2 w bias X H wi wh b r p hx hh hwi hwh hb (gateRow o ho j))

/-- The kernel body's two stored values at block entry (p, j) are the new cell state and the new hidden state of the
    specification at (r, j), when block row p of the x, h and c blocks is batch row r of X, H and C, the weight block is
    Wi transposed over Wh transposed, and the bias row is b. -/
theorem cell_block (x0 x2 c0 : FVec Ideal S256x1024 .f32) (w : FVec Ideal S2048x4096 .bf16) (bias : FVec Ideal S1x4096 .f32)
    (X H C : Act) (wi wh : Stack) (b : Bias) (r : Fin 16384) (p : Fin 256) (j : Fin 1024)
    (hx : ∀ k : Fin 1024, x0 (ix2 p k) = X (ix2 r k)) (hh : ∀ k : Fin 1024, x2 (ix2 p k) = H (ix2 r k)) (hc : c0 (ix2 p j) = C (ix2 r j))
    (hwi : ∀ (k : Fin 1024) (n : Fin 4096), w (ix2 (⟨k.val, by have := k.isLt; omega⟩ : Fin 2048) n) = wi (ix2 n k))
    (hwh : ∀ (k : Fin 1024) (n : Fin 4096), w (ix2 (⟨1024 + k.val, by have := k.isLt; omega⟩ : Fin 2048) n) = wh (ix2 n k))
    (hb : ∀ n : Fin 4096, bias (ix2 (0 : Fin 1) n) = b (ix1 n)) :
    k0_pay2 (F := Ideal) x0 x2 w bias c0 (ix2 p j) = cNew X H C wi wh b r j
      ∧ k0_pay3 (F := Ideal) x0 x2 w bias c0 (ix2 p j) = hNew X H C wi wh b r j := by
  have lane := lane_at x0 x2 w bias X H wi wh b r p hx hh hwi hwh hb
  -- the new cell state: f · c + i · g, with f, i, g the lanes 1024.., 0.., 2048.. through σ, σ, tanh
  have hcell : k0_pay2 (F := Ideal) x0 x2 w bias c0 (ix2 p j) = cNew X H C wi wh b r j := by
    unfold k0_pay2 cNew
    refine (addf_apply _ _ _).trans (congrArg₂ (· + ·)
      ((mulf_apply _ _ _).trans (congrArg₂ (· * ·) ?_ hc)) ((mulf_apply _ _ _).trans (congrArg₂ (· * ·) ?_ ?_)))
    · exact congrArg Ideal.logistic (lane 1024 (by norm_num) _ j)
    · exact congrArg Ideal.logistic (lane 0 (by norm_num) _ j)
    · exact congrArg Ideal.tanh (lane 2048 (by norm_num) _ j)
  refine ⟨hcell, ?_⟩
  -- the new hidden state: o · tanh c', with o the lane 3072.. through σ
  unfold k0_pay3 hNew
  refine (mulf_apply _ _ _).trans (congrArg₂ (· * ·) ?_ ?_)
  · exact congrArg Ideal.logistic (lane 3072 (by norm_num) _ j)
  · exact congrArg Ideal.tanh hcell

end Cert.KernelIdeal.CellValue

end
-- ==== Proof.KernelValue.lean ====
/-
  The kernel's two result arrays, after the run, are the LSTM cell's new hidden state and new cell state of the
  argument arrays — on the extended reals.

  Grid point `t` works on batch rows 256·t … 256·t + 255: the x, h and c windows' block at `t` is those rows of their
  arrays, the weight and bias windows' block is the whole operand at every point, and each result window's block at
  `t` is again those rows. By the entry-wise reading of the body's two stored values, what point `t` writes back into a
  result is therefore rows 256·t … of the specification's array; the 64 points' row blocks cover all 16384 rows (row r
  lies in the block of point r / 256), so each result array ends as the whole specification array.
-/
import proofs.«114826_j86792699117977_2_alg».proof.Proof.FrameKernelIdeal
import proofs.«114826_j86792699117977_2_alg».proof.Proof.HostPrefix
import proofs.«114826_j86792699117977_2_alg».proof.Proof.KernelCell
import proofs.«114826_j86792699117977_2_alg».proof.Proof.Spec
import Idealize.ShloMosaic.Lib.Pipeline.Value
import Idealize.ShloMosaic.Lib.ValueIdx

set_option maxRecDepth 16384

noncomputable section

namespace Cert.KernelIdeal.CellRun

open Cert.KernelIdeal Cert.KernelIdeal.Gen Cert.KernelIdeal.CellFrame Cert.KernelIdeal.HostPrefix Cert.KernelIdeal.CellValue
open Cert.LstmCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The new hidden state of the launch memory's arguments, as an array. -/
def hiddenSpec (c : Dev nD) : Act :=
  hiddenOut (arg m c main_arg0) (arg m c main_arg1) (arg m c main_arg2) (wi m c) (wh m c) (bs m c)

/-- The new cell state of the launch memory's arguments, as an array. -/
def cellSpec (c : Dev nD) : Act :=
  cellOut (arg m c main_arg0) (arg m c main_arg1) (arg m c main_arg2) (wi m c) (wh m c) (bs m c)

theorem hz : (![0, 0] : Fin 2 → Nat) = fun _ => 0 := funext fun a => by fin_cases a <;> rfl

/-- The index maps over the grid: the three activation windows and the two result windows sit at row block `t`, the
    weight and the bias at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Batch row `256·t + p`: row `p` of point `t`'s block. -/
def batchRow (t : Fin cfg0.N) (p : Fin 256) : Fin 16384 :=
  ⟨256 * t.val + p.val, by have := lt_of_lt_of_eq t.isLt N_0; have := p.isLt; omega⟩

/-- Point `t`'s block of x is rows 256·t … of x. -/
theorem x_block (c : Dev nD) (t : Fin cfg0.N) (p : Fin 256) (k : Fin 1024) :
    (iblk m c 0 t : Vec Ideal S256x1024 .f32) (ix2 p k) = arg m c main_arg0 (ix2 (batchRow t p) k) := by
  obtain ⟨e0, e1, -⟩ := index_facts t
  show V m c main_arg0 (((cfg0.win 0).blk t).view.emb (ix2 p k)) = _
  rw [entry_arg0]
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * k.val = k.val; omega

/-- Point `t`'s block of h is rows 256·t … of h. -/
theorem h_block (c : Dev nD) (t : Fin cfg0.N) (p : Fin 256) (k : Fin 1024) :
    (iblk m c 1 t : Vec Ideal S256x1024 .f32) (ix2 p k) = arg m c main_arg1 (ix2 (batchRow t p) k) := by
  obtain ⟨-, -, e0, e1, -⟩ := index_facts t
  show V m c main_arg1 (((cfg0.win 1).blk t).view.emb (ix2 p k)) = _
  rw [entry_arg1]
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 1024 + 1 * k.val = k.val; omega

/-- Point `t`'s block of c is rows 256·t … of c. -/
theorem c_block (c : Dev nD) (t : Fin cfg0.N) (p : Fin 256) (k : Fin 1024) :
    (iblk m c 2 t : Vec Ideal S256x1024 .f32) (ix2 p k) = arg m c main_arg2 (ix2 (batchRow t p) k) := by
  obtain ⟨-, -, -, -, e0, e1, -⟩ := index_facts t
  show V m c main_arg2 (((cfg0.win 2).blk t).view.emb (ix2 p k)) = _
  rw [entry_arg2]
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 1024 + 1 * k.val = k.val; omega

/-- Every point's block of the fused weight is the whole operand. -/
theorem w_block (c : Dev nD) (t : Fin cfg0.N) (q : Fin 2048) (n : Fin 4096) :
    (iblk m c 3 t : Vec Ideal S2048x4096 .bf16) (ix2 q n) = (V m c main_v6 : (⟨S2048x4096, .bf16⟩ : BufTy).Contents (Elt Ideal)) (ix2 q n) := by
  obtain ⟨-, -, -, -, -, -, e0, e1, -⟩ := index_facts t
  show V m c main_v6 (((cfg0.win 3).blk t).view.emb (ix2 q n)) = _
  refine congrArg _ (funext fun a => Fin.ext ?_)
  match a with
  | ⟨0, _⟩ => show win0_3.index t (0 : Fin 2) * 2048 + 1 * q.val = q.val; omega
  | ⟨1, _⟩ => show win0_3.index t (1 : Fin 2) * 4096 + 1 * n.val = n.val; omega

/-- Every point's block of the bias row is the whole row. -/
theorem b_block (c : Dev nD) (t : Fin cfg0.N) (n : Fin 4096) :
    (iblk m c 4 t : Vec Ideal S1x4096 .f32) (ix2 (0 : Fin 1) n) = (V m c main_v7 : (⟨S1x4096, .f32⟩ : BufTy).Contents (Elt Ideal)) (ix2 (0 : Fin 1) n) := by
  obtain ⟨-, -, -, -, -, -, -, -, e0, e1, -⟩ := index_facts t
  show V m c main_v7 (((cfg0.win 4).blk t).view.emb (ix2 (0 : Fin 1) n)) = _
  refine congrArg _ (funext fun a => Fin.ext ?_)
  match a with
  | ⟨0, _⟩ => show win0_4.index t (0 : Fin 2) * 1 + 1 * 0 = 0; omega
  | ⟨1, _⟩ => show win0_4.index t (1 : Fin 2) * 4096 + 1 * n.val = n.val; omega

/-- The body's two stored values at entry (p, j) of point `t`'s block are the specification at batch row 256·t + p. -/
theorem stored_at (c : Dev nD) (t : Fin cfg0.N) (p : Fin 256) (j : Fin 1024) :
    k0_pay2 (F := Ideal) (iblk m c 0 t) (iblk m c 1 t) (iblk m c 3 t) (iblk m c 4 t) (iblk m c 2 t) (ix2 p j)
        = cNew (arg m c main_arg0) (arg m c main_arg1) (arg m c main_arg2) (wi m c) (wh m c) (bs m c) (batchRow t p) j
      ∧ k0_pay3 (F := Ideal) (iblk m c 0 t) (iblk m c 1 t) (iblk m c 3 t) (iblk m c 4 t) (iblk m c 2 t) (ix2 p j)
        = hNew (arg m c main_arg0) (arg m c main_arg1) (arg m c main_arg2) (wi m c) (wh m c) (bs m c) (batchRow t p) j :=
  cell_block (iblk m c 0 t) (iblk m c 1 t) (iblk m c 2 t) (iblk m c 3 t) (iblk m c 4 t)
    (arg m c main_arg0) (arg m c main_arg1) (arg m c main_arg2) (wi m c) (wh m c) (bs m c) (batchRow t p) p j
    (fun k => x_block m c t p k) (fun k => h_block m c t p k) (c_block m c t p j)
    (fun k n => (w_block m c t _ n).trans (weight_lo m c k n)) (fun k n => (w_block m c t _ n).trans (weight_hi m c k n))
    (fun n => (b_block m c t n).trans (bias_at m c n))

/-- Where entry (p, j) of a result window's block at point `t` lies in its array. -/
theorem out_emb5 (t : Fin cfg0.N) (p : Fin 256) (j : Fin 1024) :
    ((cfg0.win 5).blk t).view.emb (ix2 p j) = ix2 (batchRow t p) j := by
  obtain ⟨-, -, -, -, -, -, -, -, -, -, e0, e1, -⟩ := index_facts t
  refine funext fun a => Fin.ext ?_
  match a with
  | ⟨0, _⟩ => show win0_5.index t (0 : Fin 2) * 256 + 1 * p.val = 256 * t.val + p.val; omega
  | ⟨1, _⟩ => show win0_5.index t (1 : Fin 2) * 1024 + 1 * j.val = j.val; omega

theorem out_emb6 (t : Fin cfg0.N) (p : Fin 256) (j : Fin 1024) :
    ((cfg0.win 6).blk t).view.emb (ix2 p j) = ix2 (batchRow t p) j := by
  obtain ⟨-, -, -, -, -, -, -, -, -, -, -, -, e0, e1⟩ := index_facts t
  refine funext fun a => Fin.ext ?_
  match a with
  | ⟨0, _⟩ => show win0_6.index t (0 : Fin 2) * 256 + 1 * p.val = 256 * t.val + p.val; omega
  | ⟨1, _⟩ => show win0_6.index t (1 : Fin 2) * 1024 + 1 * j.val = j.val; omega

/-- What point `t` writes back into the hidden-state result is block `t` of the specification's array. -/
theorem hidden_flushed (c : Dev nD) (t : Fin cfg0.N) :
    (dats m 0 c).flushed 5 t = ((cfg0.win 5).blk t).view.read (Elt Ideal) (hiddenSpec m c) := by
  show (cfg0.win 5).cut (grid0.coords t) ((dats m 0 c).after 5 t) = _
  rw [after5]
  unfold hiddenBlock
  rw [View.canon_unit_zero hz]
  simp only [View.ld_unit_zero (S := S256x1024) hz, View.ld_unit_zero (S := S2048x4096) hz, View.ld_unit_zero (S := S1x4096) hz]
  funext y
  obtain ⟨p, j, rfl⟩ : ∃ (p : Fin 256) (j : Fin 1024), y = ix2 p j := ⟨y 0, y 1, eq_ix2 y⟩
  show k0_pay3 (F := Ideal) (iblk m c 0 t) (iblk m c 1 t) (iblk m c 3 t) (iblk m c 4 t) (iblk m c 2 t) (ix2 p j)
    = hiddenSpec m c (((cfg0.win 5).blk t).view.emb (ix2 p j))
  rw [out_emb5]
  exact (stored_at m c t p j).2

/-- What point `t` writes back into the cell-state result is block `t` of the specification's array. -/
theorem cell_flushed (c : Dev nD) (t : Fin cfg0.N) :
    (dats m 0 c).flushed 6 t = ((cfg0.win 6).blk t).view.read (Elt Ideal) (cellSpec m c) := by
  show (cfg0.win 6).cut (grid0.coords t) ((dats m 0 c).after 6 t) = _
  rw [after6]
  unfold cellBlock
  rw [View.canon_unit_zero hz]
  simp only [View.ld_unit_zero (S := S256x1024) hz, View.ld_unit_zero (S := S2048x4096) hz, View.ld_unit_zero (S := S1x4096) hz]
  funext y
  obtain ⟨p, j, rfl⟩ : ∃ (p : Fin 256) (j : Fin 1024), y = ix2 p j := ⟨y 0, y 1, eq_ix2 y⟩
  show k0_pay2 (F := Ideal) (iblk m c 0 t) (iblk m c 1 t) (iblk m c 3 t) (iblk m c 4 t) (iblk m c 2 t) (ix2 p j)
    = cellSpec m c (((cfg0.win 6).blk t).view.emb (ix2 p j))
  rw [out_emb6]
  exact (stored_at m c t p j).1

/-- An index of a result array lies in point `t`'s block iff its coordinates lie in the block's ranges. -/
theorem mem_blk5 (t : Fin cfg0.N) (i : S16384x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v8_0).slice (win0_5.rect t)).set ↔ _
  rw [View.set_slice_whole, Rect.mem_set_unit]
  exact Iff.rfl

theorem mem_blk6 (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v8_1).slice (win0_6.rect t)).set ↔ _
  rw [View.set_slice_whole, Rect.mem_set_unit]
  exact Iff.rfl

/-- The point whose block holds batch row `r`: `r / 256`. -/
def pointOf (i : S16384x1024.Idx) : Fin cfg0.N :=
  ⟨(i 0).val / 256, by rw [show cfg0.N = 64 from N_0]; have : (i 0).val < 16384 := (i 0).isLt; omega⟩

/-- The hidden-state result array after the run is the specification's. -/
theorem hidden_final (c : Dev nD) : (dats m 0 c).arrAt 5 cfg0.N = hiddenSpec m c :=
  (dats m 0 c).arrAt_eq_of_cover 5 (hiddenSpec m c) (fun t _ => hidden_flushed m c t) fun i => by
    refine ⟨pointOf i, flush0_5 _, ?_⟩
    rw [mem_blk5]
    obtain ⟨-, -, -, -, -, -, -, -, -, -, e0, e1, -⟩ := index_facts (pointOf i)
    have h0 : (i 0).val < 16384 := (i 0).isLt
    have h1 : (i 1).val < 1024 := (i 1).isLt
    have hp : (pointOf i).val = (i 0).val / 256 := rfl
    intro a
    match a with
    | ⟨0, _⟩ => show win0_5.index (pointOf i) (0 : Fin 2) * 256 ≤ (i 0).val ∧ (i 0).val < win0_5.index (pointOf i) (0 : Fin 2) * 256 + 256; omega
    | ⟨1, _⟩ => show win0_5.index (pointOf i) (1 : Fin 2) * 1024 ≤ (i 1).val ∧ (i 1).val < win0_5.index (pointOf i) (1 : Fin 2) * 1024 + 1024; omega

/-- The cell-state result array after the run is the specification's. -/
theorem cell_final (c : Dev nD) : (dats m 0 c).arrAt 6 cfg0.N = cellSpec m c :=
  (dats m 0 c).arrAt_eq_of_cover 6 (cellSpec m c) (fun t _ => cell_flushed m c t) fun i => by
    refine ⟨pointOf i, flush0_6 _, ?_⟩
    rw [mem_blk6]
    obtain ⟨-, -, -, -, -, -, -, -, -, -, -, -, e0, e1⟩ := index_facts (pointOf i)
    have h0 : (i 0).val < 16384 := (i 0).isLt
    have h1 : (i 1).val < 1024 := (i 1).isLt
    have hp : (pointOf i).val = (i 0).val / 256 := rfl
    intro a
    match a with
    | ⟨0, _⟩ => show win0_6.index (pointOf i) (0 : Fin 2) * 256 ≤ (i 0).val ∧ (i 0).val < win0_6.index (pointOf i) (0 : Fin 2) * 256 + 256; omega
    | ⟨1, _⟩ => show win0_6.index (pointOf i) (1 : Fin 2) * 1024 ≤ (i 1).val ∧ (i 1).val < win0_6.index (pointOf i) (1 : Fin 2) * 1024 + 1024; omega

/-- The run, read: both results at the specification's arrays, every argument as launched. -/
theorem run : θ_run defs (onTc (τ := τ) (main (F := Ideal))) ⟨m, fun _ => 0, ρ⟩ fun r => ∀ c : Dev nD,
      r.2.mem ((c.tc : Thread nD τ).loc main_v8_0) = hiddenSpec m c
      ∧ r.2.mem ((c.tc : Thread nD τ).loc main_v8_1) = cellSpec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 5).trans (hidden_final m c), ((h c).1 6).trans (cell_final m c),
      args_of_post m (dats m) (A_eq m) r h c⟩)
    (run_main (F := Ideal) m ρ)

end Cert.KernelIdeal.CellRun

end
-- ==== Proof.RefIsSpec.lean ====
/-
  The reference computes the specification.

  The reference forms  x · Wiᵀ + h · Whᵀ + b  as one [16384, 4096] array, cuts it into four column blocks of width 1024
  (input, forget, cell, output gate), and sets  c' = σ(f) · c + σ(i) · tanh(g),  h' = σ(o) · tanh(c'),  the logistic
  function σ spelt 1 / (1 + exp (-·)).  Entry (r, n) of the wide array is the specification's `pre r n`: the
  transposed stack read at (k, n) is the stack at (n, k), and the broadcast bias at (r, n) is the bias at n.  Column
  `o + j` of the block starting at `o` is stacked gate row `gateRow o _ j`, and  1 / (1 + exp (-g))  is `logistic g`
  by definition once the literal 0x3F800000 is read as 1.  The three stacks stay opaque throughout.
-/
import proofs.«114826_j86792699117977_2_alg».proof.Proof.Gen.ReferenceIdeal.Read
import proofs.«114826_j86792699117977_2_alg».proof.Proof.Spec

noncomputable section

namespace Cert.ReferenceIdeal.RefValue

open Cert.ReferenceIdeal Cert.ReferenceIdeal.Read Idealize.ShloMosaic Idealize.ShloMosaic.ValueIdx
open Cert.LstmCell

/-- The single-precision literal 0x3F800000 is the number one. -/
theorem one_bits : Ideal.ofBits .f32 0x3F800000#32 = 1 := by
  simp [Ideal.ofBits, Ideal.ieee, -EReal.coe_mul]; norm_num

/-- `1 / (1 + exp (-g))` in the host's operations is the logistic function. -/
theorem sigmoid_eq (g : EReal) :
    Ideal.div (Ideal.ofBits .f32 0x3F800000#32) (Ideal.ofBits .f32 0x3F800000#32 + Ideal.exp (-g)) = Ideal.logistic g := by
  rw [one_bits]; rfl

/-- The first product: entry (r, n) of `x · Wiᵀ` is `∑ k, x[r, k] · Wi[n, k]`. -/
theorem v4_eq (x0 : (⟨S16384x1024, .f32⟩ : BufTy).Contents (Elt Ideal)) (x3 x4 x5 x6 : (⟨S1024x1024, .f32⟩ : BufTy).Contents (Elt Ideal)) (r : Fin 16384) (n : Fin 4096) :
    val_main_v4 (F := Ideal) x0 x3 x4 x5 x6 (ix2 r n)
      = ∑ k : Fin 1024, x0 (ix2 r k) * val_main_v0 (F := Ideal) x3 x4 x5 x6 (ix2 n k) := by
  rw [val_main_v4_apply]
  refine Finset.sum_congr rfl fun k _ => ?_
  rw [val_main_v3_apply]
  generalize val_main_v0 (F := Ideal) x3 x4 x5 x6 = w
  have e1 : lidx_main_v4 (ix2 r n) k = ix2 r k := funext fun a => Fin.ext (by match a with | ⟨0, _⟩ => rfl | ⟨1, _⟩ => rfl)
  have e2 : idx_main_v3 (ridx_main_v4 (ix2 r n) k) = ix2 n k := funext fun a => Fin.ext (by match a with | ⟨0, _⟩ => rfl | ⟨1, _⟩ => rfl)
  rw [e1, e2]

/-- The second product: entry (r, n) of `h · Whᵀ` is `∑ k, h[r, k] · Wh[n, k]`. -/
theorem v6_eq (x1 : (⟨S16384x1024, .f32⟩ : BufTy).Contents (Elt Ideal)) (x11 x12 x13 x14 : (⟨S1024x1024, .f32⟩ : BufTy).Contents (Elt Ideal)) (r : Fin 16384) (n : Fin 4096) :
    val_main_v6 (F := Ideal) x1 x11 x12 x13 x14 (ix2 r n)
      = ∑ k : Fin 1024, x1 (ix2 r k) * val_main_v1 (F := Ideal) x11 x12 x13 x14 (ix2 n k) := by
  rw [val_main_v6_apply]
  refine Finset.sum_congr rfl fun k _ => ?_
  rw [val_main_v5_apply]
  generalize val_main_v1 (F := Ideal) x11 x12 x13 x14 = w
  have e1 : lidx_main_v6 (ix2 r n) k = ix2 r k := funext fun a => Fin.ext (by match a with | ⟨0, _⟩ => rfl | ⟨1, _⟩ => rfl)
  have e2 : idx_main_v5 (ridx_main_v6 (ix2 r n) k) = ix2 n k := funext fun a => Fin.ext (by match a with | ⟨0, _⟩ => rfl | ⟨1, _⟩ => rfl)
  rw [e1, e2]

/-- The bias broadcast along the batch: entry (r, n) is `b[n]`. -/
theorem v9_eq (x7 x8 x9 x10 : (⟨S1024, .f32⟩ : BufTy).Contents (Elt Ideal)) (r : Fin 16384) (n : Fin 4096) :
    val_main_v9 (F := Ideal) x7 x8 x9 x10 (ix2 r n) = val_main_v2 (F := Ideal) x7 x8 x9 x10 (ix1 n) := by
  rw [val_main_v9_apply, val_main_v8_apply]
  generalize val_main_v2 (F := Ideal) x7 x8 x9 x10 = b
  exact congrArg b (funext fun a => Fin.ext (by match a with | ⟨0, _⟩ => rfl))

/-- Entry (r, n) of the wide array is the specification's pre-activation. -/
theorem pre_eq (x0 x1 : (⟨S16384x1024, .f32⟩ : BufTy).Contents (Elt Ideal)) (x3 x4 x5 x6 : (⟨S1024x1024, .f32⟩ : BufTy).Contents (Elt Ideal)) (x7 x8 x9 x10 : (⟨S1024, .f32⟩ : BufTy).Contents (Elt Ideal)) (x11 x12 x13 x14 : (⟨S1024x1024, .f32⟩ : BufTy).Contents (Elt Ideal)) (r : Fin 16384) (n : Fin 4096) :
    val_main_v10 (F := Ideal) x0 x1 x3 x4 x5 x6 x7 x8 x9 x10 x11 x12 x13 x14 (ix2 r n)
      = pre x0 x1 (val_main_v0 (F := Ideal) x3 x4 x5 x6) (val_main_v1 (F := Ideal) x11 x12 x13 x14) (val_main_v2 (F := Ideal) x7 x8 x9 x10) r n := by
  rw [val_main_v10_apply, val_main_v7_apply, v4_eq, v6_eq, v9_eq]
  generalize val_main_v0 (F := Ideal) x3 x4 x5 x6 = wi
  generalize val_main_v1 (F := Ideal) x11 x12 x13 x14 = wh
  generalize val_main_v2 (F := Ideal) x7 x8 x9 x10 = b
  rfl

/-- The slice at column offset 0 reads the pre-activation of stacked gate row `0 + j`. -/
theorem v11_eq (x0 x1 : (⟨S16384x1024, .f32⟩ : BufTy).Contents (Elt Ideal)) (x3 x4 x5 x6 : (⟨S1024x1024, .f32⟩ : BufTy).Contents (Elt Ideal)) (x7 x8 x9 x10 : (⟨S1024, .f32⟩ : BufTy).Contents (Elt Ideal)) (x11 x12 x13 x14 : (⟨S1024x1024, .f32⟩ : BufTy).Contents (Elt Ideal)) (r : Fin 16384) (j : Fin 1024) :
    val_main_v11 (F := Ideal) x0 x1 x3 x4 x5 x6 x7 x8 x9 x10 x11 x12 x13 x14 (ix2 r j)
      = pre x0 x1 (val_main_v0 (F := Ideal) x3 x4 x5 x6) (val_main_v1 (F := Ideal) x11 x12 x13 x14) (val_main_v2 (F := Ideal) x7 x8 x9 x10) r (gateRow 0 (by norm_num) j) := by
  rw [val_main_v11_apply]
  have e : idx_main_v11 (ix2 r j) = ix2 r (gateRow 0 (by norm_num) j) :=
    funext fun a => Fin.ext (by match a with | ⟨0, _⟩ => rfl | ⟨1, _⟩ => exact (Nat.zero_add _).symm)
  rw [e]
  exact pre_eq x0 x1 x3 x4 x5 x6 x7 x8 x9 x10 x11 x12 x13 x14 r _

/-- The slice at column offset 1024 reads the pre-activation of stacked gate row `1024 + j`. -/
theorem v12_eq (x0 x1 : (⟨S16384x1024, .f32⟩ : BufTy).Contents (Elt Ideal)) (x3 x4 x5 x6 : (⟨S1024x1024, .f32⟩ : BufTy).Contents (Elt Ideal)) (x7 x8 x9 x10 : (⟨S1024, .f32⟩ : BufTy).Contents (Elt Ideal)) (x11 x12 x13 x14 : (⟨S1024x1024, .f32⟩ : BufTy).Contents (Elt Ideal)) (r : Fin 16384) (j : Fin 1024) :
    val_main_v12 (F := Ideal) x0 x1 x3 x4 x5 x6 x7 x8 x9 x10 x11 x12 x13 x14 (ix2 r j)
      = pre x0 x1 (val_main_v0 (F := Ideal) x3 x4 x5 x6) (val_main_v1 (F := Ideal) x11 x12 x13 x14) (val_main_v2 (F := Ideal) x7 x8 x9 x10) r (gateRow 1024 (by norm_num) j) := by
  rw [val_main_v12_apply]
  have e : idx_main_v12 (ix2 r j) = ix2 r (gateRow 1024 (by norm_num) j) :=
    funext fun a => Fin.ext (by match a with | ⟨0, _⟩ => rfl | ⟨1, _⟩ => rfl)
  rw [e]
  exact pre_eq x0 x1 x3 x4 x5 x6 x7 x8 x9 x10 x11 x12 x13 x14 r _

/-- The slice at column offset 2048 reads the pre-activation of stacked gate row `2048 + j`. -/
theorem v13_eq (x0 x1 : (⟨S16384x1024, .f32⟩ : BufTy).Contents (Elt Ideal)) (x3 x4 x5 x6 : (⟨S1024x1024, .f32⟩ : BufTy).Contents (Elt Ideal)) (x7 x8 x9 x10 : (⟨S1024, .f32⟩ : BufTy).Contents (Elt Ideal)) (x11 x12 x13 x14 : (⟨S1024x1024, .f32⟩ : BufTy).Contents (Elt Ideal)) (r : Fin 16384) (j : Fin 1024) :
    val_main_v13 (F := Ideal) x0 x1 x3 x4 x5 x6 x7 x8 x9 x10 x11 x12 x13 x14 (ix2 r j)
      = pre x0 x1 (val_main_v0 (F := Ideal) x3 x4 x5 x6) (val_main_v1 (F := Ideal) x11 x12 x13 x14) (val_main_v2 (F := Ideal) x7 x8 x9 x10) r (gateRow 2048 (by norm_num) j) := by
  rw [val_main_v13_apply]
  have e : idx_main_v13 (ix2 r j) = ix2 r (gateRow 2048 (by norm_num) j) :=
    funext fun a => Fin.ext (by match a with | ⟨0, _⟩ => rfl | ⟨1, _⟩ => rfl)
  rw [e]
  exact pre_eq x0 x1 x3 x4 x5 x6 x7 x8 x9 x10 x11 x12 x13 x14 r _

/-- The slice at column offset 3072 reads the pre-activation of stacked gate row `3072 + j`. -/
theorem v14_eq (x0 x1 : (⟨S16384x1024, .f32⟩ : BufTy).Contents (Elt Ideal)) (x3 x4 x5 x6 : (⟨S1024x1024, .f32⟩ : BufTy).Contents (Elt Ideal)) (x7 x8 x9 x10 : (⟨S1024, .f32⟩ : BufTy).Contents (Elt Ideal)) (x11 x12 x13 x14 : (⟨S1024x1024, .f32⟩ : BufTy).Contents (Elt Ideal)) (r : Fin 16384) (j : Fin 1024) :
    val_main_v14 (F := Ideal) x0 x1 x3 x4 x5 x6 x7 x8 x9 x10 x11 x12 x13 x14 (ix2 r j)
      = pre x0 x1 (val_main_v0 (F := Ideal) x3 x4 x5 x6) (val_main_v1 (F := Ideal) x11 x12 x13 x14) (val_main_v2 (F := Ideal) x7 x8 x9 x10) r (gateRow 3072 (by norm_num) j) := by
  rw [val_main_v14_apply]
  have e : idx_main_v14 (ix2 r j) = ix2 r (gateRow 3072 (by norm_num) j) :=
    funext fun a => Fin.ext (by match a with | ⟨0, _⟩ => rfl | ⟨1, _⟩ => rfl)
  rw [e]
  exact pre_eq x0 x1 x3 x4 x5 x6 x7 x8 x9 x10 x11 x12 x13 x14 r _

/-- Stage 20 is the logistic function of the pre-activation of stacked gate row `0 + j`. -/
theorem v20_eq (x0 x1 : (⟨S16384x1024, .f32⟩ : BufTy).Contents (Elt Ideal)) (x3 x4 x5 x6 : (⟨S1024x1024, .f32⟩ : BufTy).Contents (Elt Ideal)) (x7 x8 x9 x10 : (⟨S1024, .f32⟩ : BufTy).Contents (Elt Ideal)) (x11 x12 x13 x14 : (⟨S1024x1024, .f32⟩ : BufTy).Contents (Elt Ideal)) (r : Fin 16384) (j : Fin 1024) :
    val_main_v20 (F := Ideal) x0 x1 x3 x4 x5 x6 x7 x8 x9 x10 x11 x12 x13 x14 (ix2 r j)
      = Ideal.logistic (pre x0 x1 (val_main_v0 (F := Ideal) x3 x4 x5 x6) (val_main_v1 (F := Ideal) x11 x12 x13 x14) (val_main_v2 (F := Ideal) x7 x8 x9 x10) r (gateRow 0 (by norm_num) j)) := by
  rw [val_main_v20_apply, val_main_v19_apply, val_main_cst_0_apply, val_main_v18_apply, val_main_v17_apply, val_main_cst_apply, val_main_v16_apply, val_main_v15_apply, v11_eq]
  exact sigmoid_eq _

/-- Stage 26 is the logistic function of the pre-activation of stacked gate row `1024 + j`. -/
theorem v26_eq (x0 x1 : (⟨S16384x1024, .f32⟩ : BufTy).Contents (Elt Ideal)) (x3 x4 x5 x6 : (⟨S1024x1024, .f32⟩ : BufTy).Contents (Elt Ideal)) (x7 x8 x9 x10 : (⟨S1024, .f32⟩ : BufTy).Contents (Elt Ideal)) (x11 x12 x13 x14 : (⟨S1024x1024, .f32⟩ : BufTy).Contents (Elt Ideal)) (r : Fin 16384) (j : Fin 1024) :
    val_main_v26 (F := Ideal) x0 x1 x3 x4 x5 x6 x7 x8 x9 x10 x11 x12 x13 x14 (ix2 r j)
      = Ideal.logistic (pre x0 x1 (val_main_v0 (F := Ideal) x3 x4 x5 x6) (val_main_v1 (F := Ideal) x11 x12 x13 x14) (val_main_v2 (F := Ideal) x7 x8 x9 x10) r (gateRow 1024 (by norm_num) j)) := by
  rw [val_main_v26_apply, val_main_v25_apply, val_main_cst_2_apply, val_main_v24_apply, val_main_v23_apply, val_main_cst_1_apply, val_main_v22_apply, val_main_v21_apply, v12_eq]
  exact sigmoid_eq _

/-- Stage 33 is the logistic function of the pre-activation of stacked gate row `3072 + j`. -/
theorem v33_eq (x0 x1 : (⟨S16384x1024, .f32⟩ : BufTy).Contents (Elt Ideal)) (x3 x4 x5 x6 : (⟨S1024x1024, .f32⟩ : BufTy).Contents (Elt Ideal)) (x7 x8 x9 x10 : (⟨S1024, .f32⟩ : BufTy).Contents (Elt Ideal)) (x11 x12 x13 x14 : (⟨S1024x1024, .f32⟩ : BufTy).Contents (Elt Ideal)) (r : Fin 16384) (j : Fin 1024) :
    val_main_v33 (F := Ideal) x0 x1 x3 x4 x5 x6 x7 x8 x9 x10 x11 x12 x13 x14 (ix2 r j)
      = Ideal.logistic (pre x0 x1 (val_main_v0 (F := Ideal) x3 x4 x5 x6) (val_main_v1 (F := Ideal) x11 x12 x13 x14) (val_main_v2 (F := Ideal) x7 x8 x9 x10) r (gateRow 3072 (by norm_num) j)) := by
  rw [val_main_v33_apply, val_main_v32_apply, val_main_cst_4_apply, val_main_v31_apply, val_main_v30_apply, val_main_cst_3_apply, val_main_v29_apply, val_main_v28_apply, v14_eq]
  exact sigmoid_eq _

/-- Entry (r, j) of the new cell state. -/
theorem cell_at (x0 x1 x2 : (⟨S16384x1024, .f32⟩ : BufTy).Contents (Elt Ideal)) (x3 x4 x5 x6 : (⟨S1024x1024, .f32⟩ : BufTy).Contents (Elt Ideal)) (x7 x8 x9 x10 : (⟨S1024, .f32⟩ : BufTy).Contents (Elt Ideal)) (x11 x12 x13 x14 : (⟨S1024x1024, .f32⟩ : BufTy).Contents (Elt Ideal)) (r : Fin 16384) (j : Fin 1024) :
    val_main_v36 (F := Ideal) x0 x1 x2 x3 x4 x5 x6 x7 x8 x9 x10 x11 x12 x13 x14 (ix2 r j)
      = cNew x0 x1 x2 (val_main_v0 (F := Ideal) x3 x4 x5 x6) (val_main_v1 (F := Ideal) x11 x12 x13 x14) (val_main_v2 (F := Ideal) x7 x8 x9 x10) r j := by
  rw [val_main_v36_apply, val_main_v34_apply, val_main_v35_apply, val_main_v27_apply, v26_eq, v20_eq, v13_eq]
  generalize val_main_v0 (F := Ideal) x3 x4 x5 x6 = wi
  generalize val_main_v1 (F := Ideal) x11 x12 x13 x14 = wh
  generalize val_main_v2 (F := Ideal) x7 x8 x9 x10 = b
  rfl

/-- Entry (r, j) of the new hidden state. -/
theorem hidden_at (x0 x1 x2 : (⟨S16384x1024, .f32⟩ : BufTy).Contents (Elt Ideal)) (x3 x4 x5 x6 : (⟨S1024x1024, .f32⟩ : BufTy).Contents (Elt Ideal)) (x7 x8 x9 x10 : (⟨S1024, .f32⟩ : BufTy).Contents (Elt Ideal)) (x11 x12 x13 x14 : (⟨S1024x1024, .f32⟩ : BufTy).Contents (Elt Ideal)) (r : Fin 16384) (j : Fin 1024) :
    val_main_v38 (F := Ideal) x0 x1 x2 x3 x4 x5 x6 x7 x8 x9 x10 x11 x12 x13 x14 (ix2 r j)
      = hNew x0 x1 x2 (val_main_v0 (F := Ideal) x3 x4 x5 x6) (val_main_v1 (F := Ideal) x11 x12 x13 x14) (val_main_v2 (F := Ideal) x7 x8 x9 x10) r j := by
  rw [val_main_v38_apply, val_main_v37_apply, v33_eq, cell_at]
  generalize val_main_v0 (F := Ideal) x3 x4 x5 x6 = wi
  generalize val_main_v1 (F := Ideal) x11 x12 x13 x14 = wh
  generalize val_main_v2 (F := Ideal) x7 x8 x9 x10 = b
  rfl

/-- The reference's new cell state is the specification's. -/
theorem cell_eq (x0 x1 x2 : (⟨S16384x1024, .f32⟩ : BufTy).Contents (Elt Ideal)) (x3 x4 x5 x6 : (⟨S1024x1024, .f32⟩ : BufTy).Contents (Elt Ideal)) (x7 x8 x9 x10 : (⟨S1024, .f32⟩ : BufTy).Contents (Elt Ideal)) (x11 x12 x13 x14 : (⟨S1024x1024, .f32⟩ : BufTy).Contents (Elt Ideal)) :
    val_main_v36 (F := Ideal) x0 x1 x2 x3 x4 x5 x6 x7 x8 x9 x10 x11 x12 x13 x14
      = cellOut x0 x1 x2 (val_main_v0 (F := Ideal) x3 x4 x5 x6) (val_main_v1 (F := Ideal) x11 x12 x13 x14) (val_main_v2 (F := Ideal) x7 x8 x9 x10) := by
  funext i
  obtain ⟨r, j, rfl⟩ : ∃ (r : Fin 16384) (j : Fin 1024), i = ix2 r j := ⟨i 0, i 1, eq_ix2 i⟩
  exact cell_at x0 x1 x2 x3 x4 x5 x6 x7 x8 x9 x10 x11 x12 x13 x14 r j

/-- The reference's new hidden state is the specification's. -/
theorem hidden_eq (x0 x1 x2 : (⟨S16384x1024, .f32⟩ : BufTy).Contents (Elt Ideal)) (x3 x4 x5 x6 : (⟨S1024x1024, .f32⟩ : BufTy).Contents (Elt Ideal)) (x7 x8 x9 x10 : (⟨S1024, .f32⟩ : BufTy).Contents (Elt Ideal)) (x11 x12 x13 x14 : (⟨S1024x1024, .f32⟩ : BufTy).Contents (Elt Ideal)) :
    val_main_v38 (F := Ideal) x0 x1 x2 x3 x4 x5 x6 x7 x8 x9 x10 x11 x12 x13 x14
      = hiddenOut x0 x1 x2 (val_main_v0 (F := Ideal) x3 x4 x5 x6) (val_main_v1 (F := Ideal) x11 x12 x13 x14) (val_main_v2 (F := Ideal) x7 x8 x9 x10) := by
  funext i
  obtain ⟨r, j, rfl⟩ : ∃ (r : Fin 16384) (j : Fin 1024), i = ix2 r j := ⟨i 0, i 1, eq_ix2 i⟩
  exact hidden_at x0 x1 x2 x3 x4 x5 x6 x7 x8 x9 x10 x11 x12 x13 x14 r j

end Cert.ReferenceIdeal.RefValue

end
-- ==== Proof.lean ====
/-
  The LSTM cell: a Pallas kernel that fuses the two gate products into one, against its plain reference.

  Reference:  gates = x · Wiᵀ + h · Whᵀ + b  with Wi, Wh, b the four gates' weights and biases stacked;
              c' = σ(f) · c + σ(i) · tanh(g),  h' = σ(o) · tanh(c').
  Kernel:     over 64 row blocks of 256 batch rows,  gates = [x | h] · [Wiᵀ ; Whᵀ] + b  as ONE product over the joined
              feature axis of length 2048, the operands rounded to bf16 on the way in; then the same cell update.
  On the extended reals the roundings are the identity, the product into a zero accumulator is the plain sum, and a sum
  over the joined axis is the sum of its two halves — addition being commutative and associative there, with no
  cancellation used —, so both programs compute the function of Proof/Spec.lean, entry by entry. Finiteness of the
  inputs is never needed.

  The modules: Spec (the cell as one function, and the sum law); RefIsSpec (the reference's two results are it);
  KernelCell (the kernel body's two stored values at one entry are it); FrameKernel / FrameKernelIdeal (the program
  runs, faults nowhere, keeps its arguments, and each result array is assembled from the body's blocks — at either
  reading of the floats); HostPrefix (what the host hands the kernel as fused weight and bias row); KernelValue (the
  64 row blocks cover the results: each result array is the specification's).
-/
import proofs.«114826_j86792699117977_2_alg».proof.Defs
import proofs.«114826_j86792699117977_2_alg».proof.Proof.Gen.Kernel
import proofs.«114826_j86792699117977_2_alg».proof.Proof.Gen.KernelIdeal
import proofs.«114826_j86792699117977_2_alg».proof.Proof.Gen.ReferenceIdeal
import proofs.«114826_j86792699117977_2_alg».proof.Proof.Gen.Pre_finite_inputs
import proofs.«114826_j86792699117977_2_alg».proof.Proof.Gen.ReferenceIdeal.Run
import proofs.«114826_j86792699117977_2_alg».proof.Proof.Gen.ReferenceIdeal.Read
import proofs.«114826_j86792699117977_2_alg».proof.Proof.FrameKernel
import proofs.«114826_j86792699117977_2_alg».proof.Proof.FrameKernelIdeal
import proofs.«114826_j86792699117977_2_alg».proof.Proof.KernelValue
import proofs.«114826_j86792699117977_2_alg».proof.Proof.RefIsSpec
import Idealize.ShloMosaic.Adequacy
import Idealize.ShloMosaic.Init

noncomputable section

namespace Cert.Proof

open Idealize.ShloMosaic Idealize.SL.Sem

/-- The kernel as printed runs to the end and keeps its arguments. -/
theorem frame_k : Cert.frame_Kernel := fun m ρ _ => Cert.Kernel.CellFrame.frame (F := Bits) m ρ

/-- So does its reading on the extended reals. -/
theorem frame_ki : Cert.frame_KernelIdeal := fun m ρ _ => Cert.KernelIdeal.CellFrame.frame (F := Ideal) m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- The host's stacks are one term in both programs. -/
theorem stackW_eq (a b c d : (⟨Cert.ReferenceIdeal.S1024x1024, .f32⟩ : BufTy).Contents (Elt Ideal)) :
    Cert.ReferenceIdeal.Read.val_main_v0 (F := Ideal) a b c d = Cert.KernelIdeal.HostPrefix.stackW a b c d := rfl
theorem stackW_eq' (a b c d : (⟨Cert.ReferenceIdeal.S1024x1024, .f32⟩ : BufTy).Contents (Elt Ideal)) :
    Cert.ReferenceIdeal.Read.val_main_v1 (F := Ideal) a b c d = Cert.KernelIdeal.HostPrefix.stackW a b c d := rfl
theorem stackB_eq (a b c d : (⟨Cert.ReferenceIdeal.S1024, .f32⟩ : BufTy).Contents (Elt Ideal)) :
    Cert.ReferenceIdeal.Read.val_main_v2 (F := Ideal) a b c d = Cert.KernelIdeal.HostPrefix.stackB a b c d := rfl

/-- From memories that agree on the fifteen arguments both programs end with the specification's new hidden state and
    new cell state of those arguments. -/
theorem algebraic : Cert.algebraic_KernelIdeal_ReferenceIdeal := by
  intro m ρ m' ρ' _ hagree
  refine ⟨fun c => Cert.KernelIdeal.CellRun.hiddenSpec m c, fun c => Cert.KernelIdeal.CellRun.cellSpec m c,
    Cert.KernelIdeal.CellRun.run m ρ, ?_⟩
  refine (θ_run Cert.ReferenceIdeal.defs _ _).mono (fun _ h c => ?_) (Cert.ReferenceIdeal.Value.run (F := Ideal) m' ρ')
  obtain ⟨h38, h36, hargs⟩ := h c
  obtain ⟨a0, a1, a2, a3, a4, a5, a6, a7, a8, a9, a10, a11, a12, a13, a14⟩ := hagree c
  refine ⟨h38.trans ?_, h36.trans ?_, hargs⟩
  · rw [Cert.ReferenceIdeal.Read.val_main_v38_eq, Cert.ReferenceIdeal.RefValue.hidden_eq, stackW_eq, stackW_eq', stackB_eq,
      a0, a1, a2, a3, a4, a5, a6, a7, a8, a9, a10, a11, a12, a13, a14]
    rfl
  · rw [Cert.ReferenceIdeal.Read.val_main_v36_eq, Cert.ReferenceIdeal.RefValue.cell_eq, stackW_eq, stackW_eq', stackB_eq,
      a0, a1, a2, a3, a4, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
